-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16 : Shape := ⟨1, ![16]⟩
abbrev S14541x1000 : Shape := ⟨2, ![14541, 1000]⟩
abbrev S474x500 : Shape := ⟨2, ![474, 500]⟩
abbrev S_ : Shape := ⟨0, ![]⟩

class Facts : Prop where
  bcast_S_S14541x1000 : S_.BroadcastsInDim S14541x1000 (![] : Fin 0 → Fin S14541x1000.rank)
  reducesTo_S14541x1000_S_d0_1 : S14541x1000.ReducesTo [0, 1] S_
  h_S_ : 0 < S_.numel
  bcast_S_S474x500 : S_.BroadcastsInDim S474x500 (![] : Fin 0 → Fin S474x500.rank)
  reducesTo_S474x500_S_d0_1 : S474x500.ReducesTo [0, 1] S_

variable [Facts]

def fn {F : FTy → Type} [FloatOps F] (main_arg0 : IVec S16 32) (main_arg1 : IVec S16 32) (main_arg2 : FVec F S14541x1000 .f32) (main_arg3 : FVec F S474x500 .f32) : IVec S_ 1 :=
  let main_v0 : FVec F S14541x1000 .f32 := Host.absf main_arg2
  let main_cst : FVec F S_ .f32 := constant S_ .f32 0x7F800000#32
  let main_v1 : FVec F S14541x1000 .f32 := broadcastInDim S14541x1000 ![] bcast_S_S14541x1000 main_cst
  let main_v2 : IVec S14541x1000 1 := cmpf .olt main_v0 main_v1
  let main_c : IVec S_ 1 := constantI S_ 1 1#1
  let main_v3 : IVec S_ 1 := (fun x v => Host.reduce IntOp.andi x v reducesTo_S14541x1000_S_d0_1 h_S_) main_v2 main_c
  let main_v4 : FVec F S474x500 .f32 := Host.absf main_arg3
  let main_cst_0 : FVec F S_ .f32 := constant S_ .f32 0x7F800000#32
  let main_v5 : FVec F S474x500 .f32 := broadcastInDim S474x500 ![] bcast_S_S474x500 main_cst_0
  let main_v6 : IVec S474x500 1 := cmpf .olt main_v4 main_v5
  let main_c_1 : IVec S_ 1 := constantI S_ 1 1#1
  let main_v7 : IVec S_ 1 := (fun x v => Host.reduce IntOp.andi x v reducesTo_S474x500_S_d0_1 h_S_) main_v6 main_c_1
  let main_v8 : IVec S_ 1 := andi main_v3 main_v7
  main_v8
-- ==== Kernel.lean ====
abbrev S16 : Shape := ⟨1, ![16]⟩
abbrev S14541x1000 : Shape := ⟨2, ![14541, 1000]⟩
abbrev S474x500 : Shape := ⟨2, ![474, 500]⟩
abbrev S_ : Shape := ⟨0, ![]⟩
abbrev S16x1 : Shape := ⟨2, ![16, 1]⟩
abbrev S16x1000 : Shape := ⟨2, ![16, 1000]⟩
abbrev S16x500 : Shape := ⟨2, ![16, 500]⟩
abbrev S14541x500 : Shape := ⟨2, ![14541, 500]⟩
abbrev S14848x500 : Shape := ⟨2, ![14848, 500]⟩
abbrev S16x14848 : Shape := ⟨2, ![16, 14848]⟩
abbrev S512x500 : Shape := ⟨2, ![512, 500]⟩
abbrev S16x512 : Shape := ⟨2, ![16, 512]⟩
abbrev S16x1x500 : Shape := ⟨3, ![16, 1, 500]⟩
abbrev S16x128x500 : Shape := ⟨3, ![16, 128, 500]⟩
abbrev S128x500 : Shape := ⟨2, ![128, 500]⟩
abbrev S1x128x500 : Shape := ⟨3, ![1, 128, 500]⟩
abbrev S16x128 : Shape := ⟨2, ![16, 128]⟩
abbrev S16x14541 : Shape := ⟨2, ![16, 14541]⟩

abbrev nBuf : Space → Nat
  | .hbm => 48
  | .vmem => 8
  | .smem => 0
  | _ => 0

abbrev bufTy : (tb : Table) → Fin (tcTables nBuf tb) → BufTy
  | .hbm, ⟨0, _⟩ => ⟨S16, .i32⟩
  | .hbm, ⟨1, _⟩ => ⟨S16, .i32⟩
  | .hbm, ⟨2, _⟩ => ⟨S14541x1000, .f32⟩
  | .hbm, ⟨3, _⟩ => ⟨S474x500, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x1000, .f32⟩
  | .hbm, ⟨13, _⟩ => ⟨S16x500, .f32⟩
  | .hbm, ⟨14, _⟩ => ⟨S16x500, .f32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x500, .f32⟩
  | .hbm, ⟨24, _⟩ => ⟨S_, .f32⟩
  | .hbm, ⟨25, _⟩ => ⟨S16x500, .f32⟩
  | .hbm, ⟨26, _⟩ => ⟨S16x500, .f32⟩
  | .hbm, ⟨27, _⟩ => ⟨S16x500, .f32⟩
  | .hbm, ⟨28, _⟩ => ⟨S16x500, .f32⟩
  | .hbm, ⟨29, _⟩ => ⟨S16x500, .f32⟩
  | .hbm, ⟨30, _⟩ => ⟨S16x500, .f32⟩
  | .hbm, ⟨31, _⟩ => ⟨S16x500, .f32⟩
  | .hbm, ⟨32, _⟩ => ⟨S16x500, .f32⟩
  | .hbm, ⟨33, _⟩ => ⟨S16x500, .f32⟩
  | .hbm, ⟨34, _⟩ => ⟨S16x500, .f32⟩
  | .hbm, ⟨35, _⟩ => ⟨S14541x500, .f32⟩
  | .hbm, ⟨36, _⟩ => ⟨S_, .i32⟩
  | .hbm, ⟨37, _⟩ => ⟨S_, .f32⟩
  | .hbm, ⟨38, _⟩ => ⟨S14848x500, .f32⟩
  | .hbm, ⟨39, _⟩ => ⟨S14541x500, .f32⟩
  | .hbm, ⟨40, _⟩ => ⟨S_, .i32⟩
  | .hbm, ⟨41, _⟩ => ⟨S_, .f32⟩
  | .hbm, ⟨42, _⟩ => ⟨S14848x500, .f32⟩
  | .hbm, ⟨43, _⟩ => ⟨S16x14848, .f32⟩
  | .hbm, ⟨44, _⟩ => ⟨S16x14541, .f32⟩
  | .hbm, ⟨45, _⟩ => ⟨S_, .f32⟩
  | .hbm, ⟨46, _⟩ => ⟨S16x14541, .f32⟩
  | .hbm, ⟨47, _⟩ => ⟨S16x14541, .f32⟩
  | .local _ .vmem, ⟨0, _⟩ => ⟨S16x500, .f32⟩
  | .local _ .vmem, ⟨1, _⟩ => ⟨S16x500, .f32⟩
  | .local _ .vmem, ⟨2, _⟩ => ⟨S512x500, .f32⟩
  | .local _ .vmem, ⟨3, _⟩ => ⟨S512x500, .f32⟩
  | .local _ .vmem, ⟨4, _⟩ => ⟨S512x500, .f32⟩
  | .local _ .vmem, ⟨5, _⟩ => ⟨S512x500, .f32⟩
  | .local _ .vmem, ⟨6, _⟩ => ⟨S16x512, .f32⟩
  | .local _ .vmem, ⟨7, _⟩ => ⟨S16x512, .f32⟩
  | _, _ => ⟨S16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![29], ![false]⟩

@[reducible] def k0_t1_loop : Scf.Loop 32 :=
  let c0_i32 : BitVec 32 := 0#32
  let c4_i32 : BitVec 32 := 4#32
  let v10 : BitVec 32 := Scalar.addi c0_i32 c4_i32
  let c1_i32 : BitVec 32 := 1#32
  ⟨c0_i32, v10, c1_i32⟩
def k0_mult1 (k0_t1 : Fin k0_t1_loop.trips) : BitVec 32 :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v11 : BitVec 32 := Scalar.muli arg6 c1_i32_4
  let v12 : BitVec 32 := Scalar.addi c0_i32_5 v11
  let c128_i32 : BitVec 32 := 128#32
  let v13 : BitVec 32 := Scalar.muli v12 c128_i32
  v13
def k0_off1 (k0_t1 : Fin k0_t1_loop.trips) : Fin 2 → Nat :=
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v11 : BitVec 32 := Scalar.muli arg6 c1_i32_4
  let v12 : BitVec 32 := Scalar.addi c0_i32_5 v11
  let c128_i32 : BitVec 32 := 128#32
  let v13 : BitVec 32 := Scalar.muli v12 c128_i32
  let v14 : BitVec 32 := v13
  let v15 : Index := Scalar.indexCast v14
  let c0_6 : Index := 0#32
  ![v15.toNat, 0]
def k0_off2 (k0_t1 : Fin k0_t1_loop.trips) : Fin 2 → Nat :=
  let c0_8 : Index := 0#32
  let c0_i32_5 : BitVec 32 := 0#32
  let c0_i32 : BitVec 32 := 0#32
  let c1_i32 : BitVec 32 := 1#32
  let arg6 : BitVec 32 := Scf.iv c0_i32 c1_i32 k0_t1
  let c1_i32_4 : BitVec 32 := 1#32
  let v11 : BitVec 32 := Scalar.muli arg6 c1_i32_4
  let v12 : BitVec 32 := Scalar.addi c0_i32_5 v11
  let c128_i32 : BitVec 32 := 128#32
  let v13 : BitVec 32 := Scalar.muli v12 c128_i32
  let v14 : BitVec 32 := v13
  let v32 : Index := Scalar.indexCast v14
  ![0, v32.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x500 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x500 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x500 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S16 : S_.BroadcastsInDim S16 (![] : Fin 0 → Fin S16.rank)
  bcast_S16_S16x1_0 : S16.BroadcastsInDim S16x1 (![0] : Fin 1 → Fin S16x1.rank)
  slices_S16x1000_S16x500_0_0 : S16x1000.Slices ![0, 0] S16x500
  slices_S16x1000_S16x500_0_500 : S16x1000.Slices ![0, 500] S16x500
  bcast_S_S16x500 : S_.BroadcastsInDim S16x500 (![] : Fin 0 → Fin S16x500.rank)
  slices_S14541x1000_S14541x500_0_0 : S14541x1000.Slices ![0, 0] S14541x500
  pads_S14541x500_S14848x500_03070_000 : S14541x500.Pads (![0, 0] : Fin 2 → Nat) ![307, 0] ![0, 0] S14848x500
  h_S_ : 0 < S_.numel
  slices_S14541x1000_S14541x500_0_500 : S14541x1000.Slices ![0, 500] S14541x500
  inb_S16x500_S16x500_0_0 : ∀ a, (![0, 0] : Fin 2 → Nat) a + S16x500.size a ≤ S16x500.size a
  h_S16x500 : 0 < S16x500.numel
  shapeCasts_S16x500_S16x500 : S16x500.ShapeCasts S16x500
  shapeCasts_S16x500_S16x1x500 : S16x500.ShapeCasts S16x1x500
  shapeCasts_S16x1x500_S16x1x500 : S16x1x500.ShapeCasts S16x1x500
  broadcasts_S16x1x500_S16x128x500 : S16x1x500.Broadcasts S16x128x500
  h_S128x500 : 0 < S128x500.numel
  shapeCasts_S128x500_S128x500 : S128x500.ShapeCasts S128x500
  shapeCasts_S128x500_S1x128x500 : S128x500.ShapeCasts S1x128x500
  broadcasts_S1x128x500_S16x128x500 : S1x128x500.Broadcasts S16x128x500
  reduces_S16x128x500_S16x128 : S16x128x500.Reduces [2] S16x128
  h_S16x128 : 0 < S16x128.numel
  slices_S16x14848_S16x14541_0_0 : S16x14848.Slices ![0, 0] S16x14541
  bcast_S_S16x14541 : S_.BroadcastsInDim S16x14541 (![] : Fin 0 → Fin S16x14541.rank)
  gather_S14541x1000_S16x1_S16x1000_1_0_n_n_0_1_11000_wf : GatherDims.WF S14541x1000 S16x1 S16x1000 [1] [0] [] [0] [] 1 ![1, 1000]
  gather_S474x500_S16x1_S16x500_1_0_n_n_0_1_1500_wf : GatherDims.WF S474x500 S16x1 S16x500 [1] [0] [] [0] [] 1 ![1, 500]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x500.size a ≤ S512x500.size a
  k0_off2_inb : ∀ k0_t1 : Fin k0_t1_loop.trips, ∀ a, (k0_off2 k0_t1) a + S16x128.size a ≤ S16x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x500.size a ≤ S16x500.size a
  hwx0_0 : ∀ i : grid0.Coords, EltTy.bits .f32 = 32 ∨ (Rect.block (s := S16x500) S16x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x500.size a ≤ S16x500.size a
  hwx0_1 : ∀ i : grid0.Coords, EltTy.bits .f32 = 32 ∨ (Rect.block (s := S16x500) S16x500.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x500.size a ≤ S14848x500.size a
  hwx0_2 : ∀ i : grid0.Coords, EltTy.bits .f32 = 32 ∨ (Rect.block (s := S14848x500) S512x500.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x500.size a ≤ S14848x500.size a
  hwx0_3 : ∀ i : grid0.Coords, EltTy.bits .f32 = 32 ∨ (Rect.block (s := S14848x500) S512x500.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x14848.size a
  hwx0_4 : ∀ i : grid0.Coords, EltTy.bits .f32 = 32 ∨ (Rect.block (s := S16x14848) S16x512.size (cc0_transform_4 i) (hinb0_4 i)).WholeWords (EltTy.packing .f32)

variable [Facts₀]

def gather_S14541x1000_S16x1_S16x1000_1_0_n_n_0_1_11000 : GatherDims S14541x1000 S16x1 S16x1000 where
  offsetDims := [1]
  collapsedSliceDims := [0]
  operandBatchingDims := []
  startIndicesBatchingDims := []
  startIndexMap := [0]
  indexVectorDim := 1
  sliceSizes := ![1, 1000]
  wf := gather_S14541x1000_S16x1_S16x1000_1_0_n_n_0_1_11000_wf
def gather_S474x500_S16x1_S16x500_1_0_n_n_0_1_1500 : GatherDims S474x500 S16x1 S16x500 where
  offsetDims := [1]
  collapsedSliceDims := [0]
  operandBatchingDims := []
  startIndicesBatchingDims := []
  startIndexMap := [0]
  indexVectorDim := 1
  sliceSizes := ![1, 500]
  wf := gather_S474x500_S16x1_S16x500_1_0_n_n_0_1_1500_wf

abbrev win0_0 : Pipeline.Window sig grid0 :=
  Pipeline.Window.ofSpec (Memref.whole main_v22) S16x500.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v25) S16x500.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S512x500.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S512x500.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S16x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16 : Shape := ⟨1, ![16]⟩
abbrev S14541x1000 : Shape := ⟨2, ![14541, 1000]⟩
abbrev S474x500 : Shape := ⟨2, ![474, 500]⟩
abbrev S_ : Shape := ⟨0, ![]⟩
abbrev S16x1 : Shape := ⟨2, ![16, 1]⟩
abbrev S16x1000 : Shape := ⟨2, ![16, 1000]⟩
abbrev S16x500 : Shape := ⟨2, ![16, 500]⟩
abbrev S14541x500 : Shape := ⟨2, ![14541, 500]⟩
abbrev S16x1x500 : Shape := ⟨3, ![16, 1, 500]⟩
abbrev S1x14541x500 : Shape := ⟨3, ![1, 14541, 500]⟩
abbrev S16x14541x500 : Shape := ⟨3, ![16, 14541, 500]⟩
abbrev S16x14541 : Shape := ⟨2, ![16, 14541]⟩

abbrev nBuf : Space → Nat
  | .hbm => 56
  | .vmem => 0
  | .smem => 0
  | _ => 0

abbrev bufTy : (tb : Table) → Fin (tcTables nBuf tb) → BufTy
  | .hbm, ⟨0, _⟩ => ⟨S16, .i32⟩
  | .hbm, ⟨1, _⟩ => ⟨S16, .i32⟩
  | .hbm, ⟨2, _⟩ => ⟨S14541x1000, .f32⟩
  | .hbm, ⟨3, _⟩ => ⟨S474x500, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x1000, .f32⟩
  | .hbm, ⟨13, _⟩ => ⟨S16x500, .f32⟩
  | .hbm, ⟨14, _⟩ => ⟨S16x500, .f32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S16, .i32⟩
  | .hbm, ⟨22, _⟩ => ⟨S16x1, .i32⟩
  | .hbm, ⟨23, _⟩ => ⟨S16x500, .f32⟩
  | .hbm, ⟨24, _⟩ => ⟨S_, .f32⟩
  | .hbm, ⟨25, _⟩ => ⟨S16x500, .f32⟩
  | .hbm, ⟨26, _⟩ => ⟨S16x500, .f32⟩
  | .hbm, ⟨27, _⟩ => ⟨S16x500, .f32⟩
  | .hbm, ⟨28, _⟩ => ⟨S16x500, .f32⟩
  | .hbm, ⟨29, _⟩ => ⟨S16x500, .f32⟩
  | .hbm, ⟨30, _⟩ => ⟨S16x500, .f32⟩
  | .hbm, ⟨31, _⟩ => ⟨S16x500, .f32⟩
  | .hbm, ⟨32, _⟩ => ⟨S16x500, .f32⟩
  | .hbm, ⟨33, _⟩ => ⟨S16x500, .f32⟩
  | .hbm, ⟨34, _⟩ => ⟨S16x500, .f32⟩
  | .hbm, ⟨35, _⟩ => ⟨S14541x500, .f32⟩
  | .hbm, ⟨36, _⟩ => ⟨S14541x500, .f32⟩
  | .hbm, ⟨37, _⟩ => ⟨S16x1x500, .f32⟩
  | .hbm, ⟨38, _⟩ => ⟨S1x14541x500, .f32⟩
  | .hbm, ⟨39, _⟩ => ⟨S16x14541x500, .f32⟩
  | .hbm, ⟨40, _⟩ => ⟨S16x14541x500, .f32⟩
  | .hbm, ⟨41, _⟩ => ⟨S16x14541x500, .f32⟩
  | .hbm, ⟨42, _⟩ => ⟨S16x1x500, .f32⟩
  | .hbm, ⟨43, _⟩ => ⟨S1x14541x500, .f32⟩
  | .hbm, ⟨44, _⟩ => ⟨S16x14541x500, .f32⟩
  | .hbm, ⟨45, _⟩ => ⟨S16x14541x500, .f32⟩
  | .hbm, ⟨46, _⟩ => ⟨S16x14541x500, .f32⟩
  | .hbm, ⟨47, _⟩ => ⟨S16x14541x500, .f32⟩
  | .hbm, ⟨48, _⟩ => ⟨S16x14541x500, .f32⟩
  | .hbm, ⟨49, _⟩ => ⟨S16x14541x500, .f32⟩
  | .hbm, ⟨50, _⟩ => ⟨S16x14541x500, .f32⟩
  | .hbm, ⟨51, _⟩ => ⟨S_, .f32⟩
  | .hbm, ⟨52, _⟩ => ⟨S16x14541, .f32⟩
  | .hbm, ⟨53, _⟩ => ⟨S_, .f32⟩
  | .hbm, ⟨54, _⟩ => ⟨S16x14541, .f32⟩
  | .hbm, ⟨55, _⟩ => ⟨S16x14541, .f32⟩
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  slices_S16x1000_S16x500_0_0 : S16x1000.Slices ![0, 0] S16x500
  slices_S16x1000_S16x500_0_500 : S16x1000.Slices ![0, 500] S16x500
  bcast_S_S16x500 : S_.BroadcastsInDim S16x500 (![] : Fin 0 → Fin S16x500.rank)
  slices_S14541x1000_S14541x500_0_0 : S14541x1000.Slices ![0, 0] S14541x500
  slices_S14541x1000_S14541x500_0_500 : S14541x1000.Slices ![0, 500] S14541x500
  bcast_S16x500_S16x1x500_0_2 : S16x500.BroadcastsInDim S16x1x500 (![0, 2] : Fin 2 → Fin S16x1x500.rank)
  bcast_S14541x500_S1x14541x500_1_2 : S14541x500.BroadcastsInDim S1x14541x500 (![1, 2] : Fin 2 → Fin S1x14541x500.rank)
  bcast_S16x1x500_S16x14541x500_0_1_2 : S16x1x500.BroadcastsInDim S16x14541x500 (![0, 1, 2] : Fin 3 → Fin S16x14541x500.rank)
  bcast_S1x14541x500_S16x14541x500_0_1_2 : S1x14541x500.BroadcastsInDim S16x14541x500 (![0, 1, 2] : Fin 3 → Fin S16x14541x500.rank)
  reducesTo_S16x14541x500_S16x14541_d2 : S16x14541x500.ReducesTo [2] S16x14541
  h_S_ : 0 < S_.numel
  bcast_S_S16x14541 : S_.BroadcastsInDim S16x14541 (![] : Fin 0 → Fin S16x14541.rank)
  gather_S14541x1000_S16x1_S16x1000_1_0_n_n_0_1_11000_wf : GatherDims.WF S14541x1000 S16x1 S16x1000 [1] [0] [] [0] [] 1 ![1, 1000]
  gather_S474x500_S16x1_S16x500_1_0_n_n_0_1_1500_wf : GatherDims.WF S474x500 S16x1 S16x500 [1] [0] [] [0] [] 1 ![1, 500]

variable [Facts₀]

def gather_S14541x1000_S16x1_S16x1000_1_0_n_n_0_1_11000 : GatherDims S14541x1000 S16x1 S16x1000 where
  offsetDims := [1]
  collapsedSliceDims := [0]
  operandBatchingDims := []
  startIndicesBatchingDims := []
  startIndexMap := [0]
  indexVectorDim := 1
  sliceSizes := ![1, 1000]
  wf := gather_S14541x1000_S16x1_S16x1000_1_0_n_n_0_1_11000_wf
def gather_S474x500_S16x1_S16x500_1_0_n_n_0_1_1500 : GatherDims S474x500 S16x1 S16x500 where
  offsetDims := [1]
  collapsedSliceDims := [0]
  operandBatchingDims := []
  startIndicesBatchingDims := []
  startIndexMap := [0]
  indexVectorDim := 1
  sliceSizes := ![1, 500]
  wf := gather_S474x500_S16x1_S16x500_1_0_n_n_0_1_1500_wf

class Facts : Prop extends Facts₀ where

variable [Facts]
-- ==== Proof.Spec.lean ====
/-
  The quantity both programs compute.

  For a head row with rotated embedding (re, im) in ℝ̄^500 × ℝ̄^500 and a tail row with embedding (p, q), the
  distance is the sum over the 500 coordinates of the complex modulus of the difference,
      ∑_d sqrt ((re_d - p_d)² + (im_d - q_d)²),
  and the score is 12 minus it. Nothing here depends on how the rows are stored or tiled.
-/
import Idealize.ShloMosaic.PureOps.Ideal
import Idealize.ShloMosaic.Lib.ValueIdx

noncomputable section

namespace Cert.RotDist

open Idealize.ShloMosaic Idealize.ShloMosaic.ValueIdx

/-- One coordinate's contribution: the modulus of the complex difference (a - p) + i (b - q). -/
def modulus (a b p q : EReal) : EReal := Ideal.sqrt ((a - p) * (a - p) + (b - q) * (b - q))

/-- The distance between head row `h` of the rotated embeddings `re`, `im` and tail row `e` of `pre`, `pim`
    (the tails' real and imaginary halves, `n` rows each): the sum of the 500 moduli. -/
def dist {n : ℕ} (re im : (⟨2, ![16, 500]⟩ : Shape).Idx → EReal) (pre pim : (⟨2, ![n, 500]⟩ : Shape).Idx → EReal)
    (h : Fin 16) (e : Fin n) : EReal :=
  ∑ d : Fin 500, modulus (re (ix2 h d)) (im (ix2 h d)) (pre (ix2 e d)) (pim (ix2 e d))

/-- The distances as a [16, n] array. -/
def distArr {n : ℕ} (re im : (⟨2, ![16, 500]⟩ : Shape).Idx → EReal) (pre pim : (⟨2, ![n, 500]⟩ : Shape).Idx → EReal) :
    (⟨2, ![16, n]⟩ : Shape).Idx → EReal :=
  fun j => dist re im pre pim (j 0) (j 1)

theorem distArr_apply {n : ℕ} (re im : (⟨2, ![16, 500]⟩ : Shape).Idx → EReal) (pre pim : (⟨2, ![n, 500]⟩ : Shape).Idx → EReal)
    (h : Fin 16) (e : Fin n) : distArr re im pre pim (ix2 h e) = dist re im pre pim h e := rfl

/-- The distance reads one row of each of the four arrays: it is unchanged when the arrays, and the rows' names, change
    without changing those four rows. -/
theorem dist_ext {n n' : ℕ} (re im re' im' : (⟨2, ![16, 500]⟩ : Shape).Idx → EReal)
    (pre pim : (⟨2, ![n, 500]⟩ : Shape).Idx → EReal) (pre' pim' : (⟨2, ![n', 500]⟩ : Shape).Idx → EReal)
    (h h' : Fin 16) (e : Fin n) (e' : Fin n')
    (hr : ∀ d : Fin 500, re (ix2 h d) = re' (ix2 h' d)) (hi : ∀ d : Fin 500, im (ix2 h d) = im' (ix2 h' d))
    (hp : ∀ d : Fin 500, pre (ix2 e d) = pre' (ix2 e' d)) (hq : ∀ d : Fin 500, pim (ix2 e d) = pim' (ix2 e' d)) :
    dist re im pre pim h e = dist re' im' pre' pim' h' e' := by
  unfold dist
  exact Finset.sum_congr rfl fun d _ => by rw [hr d, hi d, hp d, hq d]

/-- The distance depends on the tails only through the one row it reads. -/
theorem dist_congr {n n' : ℕ} (re im : (⟨2, ![16, 500]⟩ : Shape).Idx → EReal)
    (pre pim : (⟨2, ![n, 500]⟩ : Shape).Idx → EReal) (pre' pim' : (⟨2, ![n', 500]⟩ : Shape).Idx → EReal)
    (h h' : Fin 16) (e : Fin n) (e' : Fin n') (hh : h = h')
    (hp : ∀ d : Fin 500, pre (ix2 e d) = pre' (ix2 e' d)) (hq : ∀ d : Fin 500, pim (ix2 e d) = pim' (ix2 e' d)) :
    dist re im pre pim h e = dist re im pre' pim' h' e' := by
  subst hh
  unfold dist
  exact Finset.sum_congr rfl fun d _ => by rw [hp d, hq d]

end Cert.RotDist

end
-- ==== Proof.LibLayout3.lean ====
/-
  Rank-3 layout operations read at an index given by coordinates.

  A shape cast keeps the row-major position of an element, and a broadcast reads coordinate 0 on each unit
  axis of its operand. The lemmas below spell this out, for indices written by their coordinates, in the cases
  an outer product of two row blocks flattened for a matrix product needs:
  * inserting a unit axis in the middle, `[a, c] → [a, 1, c]`;
  * flattening the two leading axes, `[a, b, c] → [a * b, c]` (row `i * b + k` is the pair `(i, k)`), and back;
  * stretching a unit axis, `[a, 1, c] → [a, b, c]`, `[1, b, c] → [a, b, c]`, `[1, 1, c] → [a, b, c]`.
-/
import Idealize.ShloMosaic.Lib.Pipeline.Value
import Idealize.ShloMosaic.Lib.ValueIdx

namespace Cert.Layout3

open Idealize.ShloMosaic Idealize.ShloMosaic.ValueIdx

variable {α : Type}

/-! ## Shape casts -/

/-- An `[a, c]` array cast to `[a, 1, c]` reads, at `(i, u, j)`, the operand at `(i, j)`: both have row-major
    position `i * c + j`, the unit coordinate `u` being `0`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, b, c]` array cast to `[m, c]` reads, at `(r, j)` with `r = i * b + k`, the operand at `(i, k, j)`: both have
    row-major position `(i * b + k) * c + j`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (j : Fin c) (i : Fin a) (k : Fin b)
    (hr : r.val = i.val * b + k.val) :
    shapeCast ⟨2, ![m, c]⟩ x h (ix2 r j) = x (ix3 i k j) :=
  shapeCast_apply x h _ _ (by
    rw [Shape.rowMajor_val_three, Shape.rowMajor_val_two]
    show (i.val * b + k.val) * c + j.val = r.val * c + j.val
    rw [hr])

/-- An `[m, c]` array cast to `[a, b, c]` reads, at `(i, k, j)`, the operand at `(r, j)` with `r = i * b + k`. -/
theorem shapeCast_mc_abc_apply {a b c m : ℕ} (x : (⟨2, ![m, c]⟩ : Shape).Idx → α)
    (h : (⟨2, ![m, c]⟩ : Shape).ShapeCasts ⟨3, ![a, b, c]⟩) (i : Fin a) (k : Fin b) (j : Fin c) (r : Fin m)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-! ## Broadcasts along unit axes -/

/-- An `[a, 1, c]` array broadcast to `[a, b, c]` reads, at `(i, k, j)`, the operand at `(i, 0, j)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A `[1, b, c]` array broadcast to `[a, b, c]` reads, at `(i, k, j)`, the operand at `(0, k, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ v h (ix3 i k j) = v (ix3 (0 : Fin 1) k j) := by
  refine broadcastTo_apply v h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A `[1, 1, c]` array broadcast to `[a, b, c]` reads, at `(i, k, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ v h (ix3 i k j) = v (ix3 (0 : Fin 1) (0 : Fin 1) j) := by
  refine broadcastTo_apply v h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

end Cert.Layout3
-- ==== Proof.Payload.lean ====
/-
  The kernel body's arithmetic, read at an index.

  One trip of the body's loop takes the two [16, 500] blocks of rotated head embeddings and a [128, 500] chunk of
  each half of the tails, stretches both to [16, 128, 500], and sums the moduli of the differences over the last
  axis. At entry (h, l) that is the distance between head row h and chunk row l.
-/
import proofs.«132691_j72576357368235_2_alg».proof.Proof.Gen.KernelIdeal.Skeleton
import proofs.«132691_j72576357368235_2_alg».proof.Proof.Spec
import proofs.«132691_j72576357368235_2_alg».proof.Proof.LibLayout3
import Idealize.ShloMosaic.Lib.Pipeline.Value
import Idealize.ShloMosaic.Lib.ValueIdx
import Idealize.ShloMosaic.PureOps.Ideal.Laws

noncomputable section

namespace Cert.RotDist

open Idealize.ShloMosaic Idealize.ShloMosaic.ValueIdx Cert.KernelIdeal Cert.KernelIdeal.Gen Cert.Layout3

/-- A [b, c] array cast to [1, b, c] reads, at (u, k, j), the operand at (k, j): the leading coordinate is 0 and the
    row-major positions agree. -/
theorem shapeCast_bc_1bc_apply {α : Type} {b c : ℕ} (x : (⟨2, ![b, c]⟩ : Shape).Idx → α)
    (h : (⟨2, ![b, c]⟩ : Shape).ShapeCasts ⟨3, ![1, b, c]⟩) (u : Fin 1) (k : Fin b) (j : Fin c) :
    shapeCast ⟨3, ![1, b, c]⟩ x h (ix3 u k j) = x (ix2 k j) :=
  shapeCast_apply x h _ _ (by
    have hu : u.val = 0 := by omega
    rw [Shape.rowMajor_val_three, Shape.rowMajor_val_two]
    show k.val * c + j.val = (u.val * b + k.val) * c + j.val
    rw [hu, Nat.zero_mul, Nat.zero_add])

/-- The lane sum over the last axis of a [16, 128, 500] array, at (h, l): the sum over d of the entries (h, l, d). -/
theorem laneSum_apply (src : FVec Ideal S16x128x500 .f32) (hacc : (0x00000000#32 : BitVec 32) = 0x00000000#32)
    (h : Fin 16) (l : Fin 128) :
    multiReduction .add [2] S16x128 src 0x00000000#32 reduces_S16x128x500_S16x128 (.inl rfl) hacc (ix2 h l)
      = ∑ d : Fin 500, src (ix3 h l d) := by
  refine (Ideal.multiReduction_add_single src 0x00000000#32 reduces_S16x128x500_S16x128 (.inl rfl) hacc (ix2 h l)).trans ?_
  refine Finset.sum_congr rfl fun d _ => ?_
  exact congrArg src (funext fun a => Fin.ext (by match a with | ⟨0, _⟩ => rfl | ⟨1, _⟩ => rfl | ⟨2, _⟩ => rfl))

/-- The body's payload at (h, l): the distance between head row h and row l of the chunk. -/
theorem pay_apply (v0 v2 : Vec Ideal S16x500 .f32) (a b : Vec Ideal S128x500 .f32) (h : Fin 16) (l : Fin 128) :
    k0_pay1 (F := Ideal) v0 v2 a b (ix2 h l) = dist v0 v2 a b h l := by
  unfold k0_pay1
  dsimp only
  refine (laneSum_apply _ rfl h l).trans ?_
  unfold dist modulus
  refine Finset.sum_congr rfl fun d _ => ?_
  show Ideal.sqrt (_ * _ + _ * _) = _
  simp only [subf_apply, broadcastTo_a1c_abc_apply, broadcastTo_1bc_abc_apply, shapeCast_self, shapeCast_ac_a1c_apply,
    shapeCast_bc_1bc_apply]

end Cert.RotDist

end
-- ==== Proof.BodyPieces.lean ====
/-
  What one run of the kernel body leaves in the output block.

  The body's loop makes four trips; trip k stores, into columns 128 k … 128 k + 127 of the [16, 512] output block, the
  distances between the 16 head rows and rows 128 k … 128 k + 127 of the [512, 500] tail blocks. So every store is the
  restriction of ONE function of the block index — entry (h, j) is the distance between head row h and tail row j of the
  block — and, the four stores tiling the block, the block ends holding that function.
-/
import proofs.«132691_j72576357368235_2_alg».proof.Proof.Gen.KernelIdeal.Frame
import proofs.«132691_j72576357368235_2_alg».proof.Proof.Payload
import Idealize.ShloMosaic.Lib.Pipeline.Value

set_option maxRecDepth 16384

noncomputable section

namespace Cert.RotDist

open Idealize.ShloMosaic Idealize.ShloMosaic.TcCoe Idealize.SL.Sem Idealize.ShloMosaic.ValueIdx
open Cert.KernelIdeal Cert.KernelIdeal.Gen

/-! ## Where trip k loads and stores -/

theorem off1_0 (k : Fin k0_t1_loop.trips) : k0_off1 k 0 = 128 * k.val := by rw [k0_off1_eq]; rfl
theorem off1_1 (k : Fin k0_t1_loop.trips) : k0_off1 k 1 = 0 := by rw [k0_off1_eq]; rfl
theorem off2_0 (k : Fin k0_t1_loop.trips) : k0_off2 k 0 = 0 := by rw [k0_off2_eq]; rfl
theorem off2_1 (k : Fin k0_t1_loop.trips) : k0_off2 k 1 = 128 * k.val := by rw [k0_off2_eq]; rfl

theorem hz : (![0, 0] : Fin 2 → Nat) = fun _ => 0 := funext fun a => by fin_cases a <;> rfl

/-! ## One trip -/

/-- Trip k's one store: at columns 128 k … of the output block, the payload of the rows 128 k … of the tail blocks. -/
theorem trip_piece (𝒱 : Variants) (c : Dev nD) (bd : Option 𝒱.V) (i : grid0.Coords) (arg1 : Memref sig .tc .vmem S16x500 .f32) (harg1 : arg1.IsWhole) (arg2 : Memref sig .tc .vmem S16x500 .f32) (harg2 : arg2.IsWhole) (arg3 : Memref sig .tc .vmem S512x500 .f32) (harg3 : arg3.IsWhole) (arg4 : Memref sig .tc .vmem S512x500 .f32) (harg4 : arg4.IsWhole) (arg5 : Memref sig .tc .vmem S16x512 .f32) (harg5 : arg5.IsWhole)
    (v0 v2 : Vec Ideal S16x500 .f32) (X3 : BufTy.Contents (Elt Ideal) arg3.view.ty) (X4 : BufTy.Contents (Elt Ideal) arg4.view.ty)
    (k : Fin k0_t1_loop.trips) :
    tripL_k0_t1 (F := Ideal) 𝒱 c bd i arg1 harg1 arg2 harg2 arg3 harg3 arg4 harg4 arg5 harg5 v0 v2 X3 X4 k
      = [⟨Rect.unit (s := S16x512) (k0_off2 k) S16x128.size (k0_off2_inb k),
          k0_pay1 v0 v2 (View.readAt (Elt Ideal) arg3.view (Rect.unit (s := S512x500) (k0_off1 k) S128x500.size (k0_off1_inb k)).toLoadRect X3)
            (View.readAt (Elt Ideal) arg4.view (Rect.unit (s := S512x500) (k0_off1 k) S128x500.size (k0_off1_inb k)).toLoadRect X4)⟩] := by
  unfold tripL_k0_t1 trip_k0_t1
  rfl

/-- That store's payload, at a local index, is the block's distance array at the index's place in the block. -/
theorem trip_payload_eq (v0 v2 : Vec Ideal S16x500 .f32) (A3 A4 : S512x500.Idx → EReal) (k : Fin k0_t1_loop.trips)
    (x : (Rect.unit (s := S16x512) (k0_off2 k) S16x128.size (k0_off2_inb k)).shape.Idx) :
    k0_pay1 (F := Ideal) v0 v2 (View.ld A3 (Rect.unit (s := S512x500) (k0_off1 k) S128x500.size (k0_off1_inb k)))
        (View.ld A4 (Rect.unit (s := S512x500) (k0_off1 k) S128x500.size (k0_off1_inb k))) x
      = distArr v0 v2 A3 A4 ((Rect.unit (s := S16x512) (k0_off2 k) S16x128.size (k0_off2_inb k)).emb x) := by
  obtain ⟨h, l, rfl⟩ : ∃ (h : Fin 16) (l : Fin 128), x = ix2 h l := ⟨x 0, x 1, eq_ix2 x⟩
  refine (pay_apply v0 v2 _ _ h l).trans ?_
  unfold distArr
  refine dist_congr v0 v2 _ _ A3 A4 h _ l _ (Fin.ext ?_) (fun d => ?_) (fun d => ?_)
  · show h.val = k0_off2 k 0 + 1 * h.val
    rw [off2_0]; omega
  · show A3 _ = A3 _
    refine congrArg A3 (funext fun a => Fin.ext ?_)
    match a with
    | ⟨0, _⟩ => show k0_off1 k 0 + 1 * l.val = k0_off2 k 1 + 1 * l.val; rw [off1_0, off2_1]
    | ⟨1, _⟩ => show k0_off1 k 1 + 1 * d.val = d.val; rw [off1_1]; omega
  · show A4 _ = A4 _
    refine congrArg A4 (funext fun a => Fin.ext ?_)
    match a with
    | ⟨0, _⟩ => show k0_off1 k 0 + 1 * l.val = k0_off2 k 1 + 1 * l.val; rw [off1_0, off2_1]
    | ⟨1, _⟩ => show k0_off1 k 1 + 1 * d.val = d.val; rw [off1_1]; omega

/-! ## All the trips -/

/-- Every store of the first n trips is a restriction of the block's distance array. -/
theorem pieces_agree (𝒱 : Variants) (c : Dev nD) (bd : Option 𝒱.V) (i : grid0.Coords) (arg1 : Memref sig .tc .vmem S16x500 .f32) (harg1 : arg1.IsWhole) (arg2 : Memref sig .tc .vmem S16x500 .f32) (harg2 : arg2.IsWhole) (arg3 : Memref sig .tc .vmem S512x500 .f32) (harg3 : arg3.IsWhole) (arg4 : Memref sig .tc .vmem S512x500 .f32) (harg4 : arg4.IsWhole) (arg5 : Memref sig .tc .vmem S16x512 .f32) (harg5 : arg5.IsWhole)
    (v0 v2 : Vec Ideal S16x500 .f32) (X3 : BufTy.Contents (Elt Ideal) arg3.view.ty) (X4 : BufTy.Contents (Elt Ideal) arg4.view.ty) :
    ∀ (n : ℕ), ∀ p ∈ pb_k0_t1 (F := Ideal) 𝒱 c bd i arg1 harg1 arg2 harg2 arg3 harg3 arg4 harg4 arg5 harg5 v0 v2 X3 X4 n, ∀ x : p.1.shape.Idx,
      p.2 x = distArr v0 v2 (arg3.view.read (Elt Ideal) X3) (arg4.view.read (Elt Ideal) X4) (p.1.emb x)
  | 0 => fun p hp => by rw [pb_k0_t1.eq_1] at hp; exact absurd hp List.not_mem_nil
  | n + 1 => fun p hp x => by
    rw [pb_k0_t1.eq_2] at hp
    unfold pb_k0_t1Step at hp
    split at hp
    · rename_i hn
      rcases List.mem_append.mp hp with h1 | h2
      · rw [trip_piece] at h1
        obtain rfl := List.mem_singleton.mp h1
        dsimp only
        rw [View.readAt_eq_ld, View.readAt_eq_ld]
        exact trip_payload_eq v0 v2 _ _ ⟨n, hn⟩ x
      · exact pieces_agree 𝒱 c bd i arg1 harg1 arg2 harg2 arg3 harg3 arg4 harg4 arg5 harg5 v0 v2 X3 X4 n p h2 x
    · exact pieces_agree 𝒱 c bd i arg1 harg1 arg2 harg2 arg3 harg3 arg4 harg4 arg5 harg5 v0 v2 X3 X4 n p hp x

/-! ## The block the body leaves -/

/-- On blocks x0, x1 of the rotated head embeddings and x2, x3 of the two halves of the tails, the body leaves the
    distances between the 16 head rows and the 512 tail rows of the block. -/
theorem out_block (c : Dev nD) (i : grid0.Coords) (arg1 : Memref sig .tc .vmem S16x500 .f32) (harg1 : arg1.IsWhole) (arg2 : Memref sig .tc .vmem S16x500 .f32) (harg2 : arg2.IsWhole) (arg3 : Memref sig .tc .vmem S512x500 .f32) (harg3 : arg3.IsWhole) (arg4 : Memref sig .tc .vmem S512x500 .f32) (harg4 : arg4.IsWhole) (arg5 : Memref sig .tc .vmem S16x512 .f32) (harg5 : arg5.IsWhole)
    (x0 x1 : Vec Ideal S16x500 .f32) (x2 x3 : Vec Ideal S512x500 .f32) :
    out0_A_4 (F := Ideal) c i arg1 harg1 arg2 harg2 arg3 harg3 arg4 harg4 arg5 harg5 x0 x1 x2 x3 = distArr x0 x1 x2 x3 := by
  unfold out0_A_4
  rw [View.read_writes_junk_eq_canon]
  funext y
  refine View.canon_apply_of_pieces (distArr x0 x1 x2 x3) _ ?_ y (cover0_A_4 c i arg1 harg1 arg2 harg2 arg3 harg3 arg4 harg4 arg5 harg5 x0 x1 x2 x3 y)
  unfold kernelRun0_A
  dsimp only
  intro p hp x
  rw [pieces_agree Variants.none c none i arg1 harg1 arg2 harg2 arg3 harg3 arg4 harg4 arg5 harg5 _ _ _ _ _ p hp x]
  simp only [View.readAt_eq_ld, harg1.read_unread, harg2.read_unread, harg3.read_unread, harg4.read_unread,
    View.ld_unit_zero (S := S16x500) hz]

end Cert.RotDist

end
-- ==== Proof.KernelValue.lean ====
/-
  The array the kernel's region leaves.

  Grid point t stages the whole [16, 500] blocks of the rotated head embeddings, rows 512 t … 512 t + 511 of the two
  padded halves of the tails, and writes back columns 512 t … 512 t + 511 of the [16, 14848] result. What the body
  leaves in that block is the distance array of the staged blocks, so the block written back is the restriction of ONE
  array: entry (h, e) is the distance between head row h and row e of the padded tails. The 29 blocks tile the result,
  which therefore ends holding that array.
-/
import proofs.«132691_j72576357368235_2_alg».proof.Proof.Gen.KernelIdeal.Frame
import proofs.«132691_j72576357368235_2_alg».proof.Proof.BodyPieces
import Idealize.ShloMosaic.Lib.Pipeline.Value

set_option maxRecDepth 16384

noncomputable section

namespace Cert.RotDist

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## Which blocks a point stages -/

/-- Over the 29 points: the head blocks are always block (0, 0); the tails' blocks are row block t; the result's block is
    column block t. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-! ## A point's block is a block of one array -/

/-- The distance array of the blocks point t stages, at a place in the result's block, is the distance array of the whole
    arrays at that place in the whole result: head row h of the block is head row h, and row j of the tails' block is row
    512 t + j, which is the column the result's block puts its column j at. -/
theorem block_dist (RE IM : S16x500.Idx → EReal) (PRE PIM : S14848x500.Idx → EReal) (t : Fin cfg0.N)
    (j : ((cfg0.win 4).xblock (cfg0.grid.coords t)).Idx) :
    distArr (((cfg0.win 0).blk t).view.read (Elt Ideal) RE) (((cfg0.win 1).blk t).view.read (Elt Ideal) IM)
        (((cfg0.win 2).blk t).view.read (Elt Ideal) PRE) (((cfg0.win 3).blk t).view.read (Elt Ideal) PIM) j
      = distArr RE IM PRE PIM (((cfg0.win 4).blk t).view.emb j) := by
  obtain ⟨e00, e01, e10, e11, e20, e21, e30, e31, e40, e41⟩ := idx_facts t
  unfold distArr
  refine dist_ext _ _ RE IM _ _ PRE PIM _ _ _ _ (fun d => ?_) (fun d => ?_) (fun d => ?_) (fun d => ?_)
  · show RE (((cfg0.win 0).blk t).view.emb (ix2 (j 0) d)) = RE _
    refine congrArg RE (funext fun a => Fin.ext ?_)
    match a with
    | ⟨0, _⟩ => show win0_0.index t (0 : Fin 2) * 16 + 1 * (j 0).val = win0_4.index t (0 : Fin 2) * 16 + 1 * (j 0).val; rw [e00, e40]
    | ⟨1, _⟩ => show win0_0.index t (1 : Fin 2) * 500 + 1 * d.val = d.val; rw [e01]; omega
  · show IM (((cfg0.win 1).blk t).view.emb (ix2 (j 0) d)) = IM _
    refine congrArg IM (funext fun a => Fin.ext ?_)
    match a with
    | ⟨0, _⟩ => show win0_1.index t (0 : Fin 2) * 16 + 1 * (j 0).val = win0_4.index t (0 : Fin 2) * 16 + 1 * (j 0).val; rw [e10, e40]
    | ⟨1, _⟩ => show win0_1.index t (1 : Fin 2) * 500 + 1 * d.val = d.val; rw [e11]; omega
  · show PRE (((cfg0.win 2).blk t).view.emb (ix2 (j 1) d)) = PRE _
    refine congrArg PRE (funext fun a => Fin.ext ?_)
    match a with
    | ⟨0, _⟩ => show win0_2.index t (0 : Fin 2) * 512 + 1 * (j 1).val = win0_4.index t (1 : Fin 2) * 512 + 1 * (j 1).val; rw [e20, e41]
    | ⟨1, _⟩ => show win0_2.index t (1 : Fin 2) * 500 + 1 * d.val = d.val; rw [e21]; omega
  · show PIM (((cfg0.win 3).blk t).view.emb (ix2 (j 1) d)) = PIM _
    refine congrArg PIM (funext fun a => Fin.ext ?_)
    match a with
    | ⟨0, _⟩ => show win0_3.index t (0 : Fin 2) * 512 + 1 * (j 1).val = win0_4.index t (1 : Fin 2) * 512 + 1 * (j 1).val; rw [e30, e41]
    | ⟨1, _⟩ => show win0_3.index t (1 : Fin 2) * 500 + 1 * d.val = d.val; rw [e31]; omega

/-- What the result's staging buffer holds after point t: the distance array of the staged blocks. -/
theorem outsAt_eq (c : Dev nD) (t : Fin cfg0.N) :
    outsAt0 m c t = distArr (iblk m c 0 t) (iblk m c 1 t) (iblk m c 2 t) (iblk m c 3 t) := by
  unfold outsAt0
  exact out_block c (grid0.coords t) (ms0_0 t) (hs0_0 t) (ms0_1 t) (hs0_1 t) (ms0_2 t) (hs0_2 t) (ms0_3 t) (hs0_3 t)
    (ms0_4 t) (hs0_4 t) (iblk m c 0 t) (iblk m c 1 t) (iblk m c 2 t) (iblk m c 3 t)

/-- The [16, 14848] array of distances between the head rows and the rows of the padded tails, over the arrays as the
    region finds them. -/
abbrev padded (c : Dev nD) : S16x14848.Idx → EReal :=
  distArr (V m c main_v22) (V m c main_v25) (V m c main_v27) (V m c main_v29)

/-- What point t writes back is block t of that array. -/
theorem flushed_eq (c : Dev nD) (t : Fin cfg0.N) :
    (dats m 0 c).flushed 4 t = ((cfg0.win 4).blk t).view.read (Elt Ideal) (padded m c) := by
  show (cfg0.win 4).cut (grid0.coords t) ((dats m 0 c).after 4 t) = _
  rw [after0_4, outsAt_eq]
  funext j
  exact block_dist (V m c main_v22) (V m c main_v25) (V m c main_v27) (V m c main_v29) t j

/-! ## The blocks tile the result -/

/-- An index of the result is in point t's block iff each coordinate is in the block's range on its axis. -/
theorem mem_blk (t : Fin cfg0.N) (i : S16x14848.Idx) :
    i ∈ ((cfg0.win 4).blk t).view.set ↔ ∀ a : Fin 2, win0_4.index t a * S16x512.size a ≤ (i a).val
      ∧ (i a).val < win0_4.index t a * S16x512.size a + S16x512.size a := by
  show i ∈ ((View.whole main_v30).slice (win0_4.rect t)).set ↔ _
  rw [View.set_slice_whole, Rect.mem_set_unit]
  exact Iff.rfl

/-- Column e of the result lies in the block of point e / 512. -/
theorem covered (i : S16x14848.Idx) :
    ∃ t : Fin cfg0.N, (cfg0.win 4).flush t = true ∧ i ∈ ((cfg0.win 4).blk t).view.set := by
  have hi0 : (i 0).val < 16 := (i 0).isLt
  have hi1 : (i 1).val < 14848 := (i 1).isLt
  have hN : cfg0.N = 29 := N_0
  have hlt : (i 1).val / 512 < cfg0.N := by rw [hN]; omega
  obtain ⟨_, _, _, _, _, _, _, _, e40, e41⟩ := idx_facts ⟨(i 1).val / 512, hlt⟩
  refine ⟨⟨(i 1).val / 512, hlt⟩, flush0_4 _, ?_⟩
  rw [mem_blk]
  intro a
  match a with
  | ⟨0, _⟩ =>
    show win0_4.index ⟨(i 1).val / 512, hlt⟩ (0 : Fin 2) * 16 ≤ (i 0).val
      ∧ (i 0).val < win0_4.index ⟨(i 1).val / 512, hlt⟩ (0 : Fin 2) * 16 + 16
    rw [e40]; omega
  | ⟨1, _⟩ =>
    show win0_4.index ⟨(i 1).val / 512, hlt⟩ (1 : Fin 2) * 512 ≤ (i 1).val
      ∧ (i 1).val < win0_4.index ⟨(i 1).val / 512, hlt⟩ (1 : Fin 2) * 512 + 512
    rw [e41]
    show (i 1).val / 512 * 512 ≤ (i 1).val ∧ (i 1).val < (i 1).val / 512 * 512 + 512
    omega

/-- So the result array ends holding the distances to the padded tails. -/
theorem final (c : Dev nD) : (dats m 0 c).arrAt 4 cfg0.N = padded m c :=
  (dats m 0 c).arrAt_eq_of_cover 4 (padded m c) (fun t _ => flushed_eq m c t) covered

end Cert.RotDist

end
-- ==== Proof.HostSide.lean ====
/-
  The arrays the kernel's region is launched on.

  Before the launch the program gathers the head and relation rows, rotates the heads, and pads each half of the tails
  with 307 zero rows. The rotation is, operation for operation, the reference's own (its stages `%22` and `%25`), so the
  two are one function of the arguments and nothing of it is opened here. A row of a padded half below 14541 is the
  row of the half itself.
-/
import proofs.«132691_j72576357368235_2_alg».proof.Proof.Gen.KernelIdeal.Frame
import proofs.«132691_j72576357368235_2_alg».proof.Proof.Gen.ReferenceIdeal.Read
import Idealize.ShloMosaic.Lib.StableHlo.Run
import Idealize.ShloMosaic.Lib.KernelVsHost
import Idealize.ShloMosaic.Lib.Pipeline.Value
import Idealize.ShloMosaic.Lib.ValueIdx

set_option maxRecDepth 16384

noncomputable section

namespace Cert.RotDist

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The real parts of the rotated heads, as the region finds them, are the reference's stage `%22` of the arguments. -/
theorem V_re (c : Dev nD) :
    V m c main_v22 = Cert.ReferenceIdeal.Read.val_main_v22 (F := Ideal) (m ((c : Thread nD τ).loc main_arg0)) (m ((c : Thread nD τ).loc main_arg1))
      (m ((c : Thread nD τ).loc main_arg2)) (m ((c : Thread nD τ).loc main_arg3)) := by
  dsimp only [V, V0]
  simp only [hostOps0, hostOps0_1, hostOps0_2, hostOps0_3, List.flatten_cons, List.flatten_nil, List.append_nil, List.cons_append, List.nil_append]
  after_results_simp <;> rfl

/-- The imaginary parts likewise are its stage `%25`. -/
theorem V_im (c : Dev nD) :
    V m c main_v25 = Cert.ReferenceIdeal.Read.val_main_v25 (F := Ideal) (m ((c : Thread nD τ).loc main_arg0)) (m ((c : Thread nD τ).loc main_arg1))
      (m ((c : Thread nD τ).loc main_arg2)) (m ((c : Thread nD τ).loc main_arg3)) := by
  dsimp only [V, V0]
  simp only [hostOps0, hostOps0_1, hostOps0_2, hostOps0_3, List.flatten_cons, List.flatten_nil, List.append_nil, List.cons_append, List.nil_append]
  after_results_simp <;> rfl

/-- The padded real half of the tails: the left half of the entity table under 307 rows of the padding value. -/
theorem V_pre (c : Dev nD) :
    V m c main_v27 = pad S14848x500 ![0, 0] ![307, 0] ![0, 0]
      (extractStridedSlice S14541x500 ![0, 0] (m ((c : Thread nD τ).loc main_arg2)) slices_S14541x1000_S14541x500_0_0)
      (sitofp (F := Ideal) .f32 (constantI S_ 32 0#32)) pads_S14541x500_S14848x500_03070_000 h_S_ := by
  dsimp only [V, V0]
  simp only [hostOps0, hostOps0_1, hostOps0_2, hostOps0_3, List.flatten_cons, List.flatten_nil, List.append_nil, List.cons_append, List.nil_append]
  after_results
  rfl

/-- The padded imaginary half: the right half of the entity table under the same padding. -/
theorem V_pim (c : Dev nD) :
    V m c main_v29 = pad S14848x500 ![0, 0] ![307, 0] ![0, 0]
      (extractStridedSlice S14541x500 ![0, 500] (m ((c : Thread nD τ).loc main_arg2)) slices_S14541x1000_S14541x500_0_500)
      (sitofp (F := Ideal) .f32 (constantI S_ 32 0#32)) pads_S14541x500_S14848x500_03070_000 h_S_ := by
  dsimp only [V, V0]
  simp only [hostOps0, hostOps0_1, hostOps0_2, hostOps0_3, List.flatten_cons, List.flatten_nil, List.append_nil, List.cons_append, List.nil_append]
  after_results
  rfl

/-- Row e < 14541 of the padded real half is row e of the reference's real half (its stage `%26`). -/
theorem V_pre_apply (c : Dev nD) (e' : Fin 14848) (e : Fin 14541) (he : e'.val = e.val) (d : Fin 500) :
    V m c main_v27 (ix2 e' d) = Cert.ReferenceIdeal.Read.val_main_v26 (F := Ideal) (m ((c : Thread nD τ).loc main_arg2)) (ix2 e d) := by
  rw [V_pre]
  refine (pad_apply_of_inside _ _ _ _ _ _ _ (ix2 e' d) (ix2 e d) (fun a => ?_)).trans rfl
  match a with
  | ⟨0, _⟩ => show e'.val = 0 + e.val * (0 + 1); omega
  | ⟨1, _⟩ => show d.val = 0 + d.val * (0 + 1); omega

/-- Row e < 14541 of the padded imaginary half is row e of the reference's imaginary half (its stage `%27`). -/
theorem V_pim_apply (c : Dev nD) (e' : Fin 14848) (e : Fin 14541) (he : e'.val = e.val) (d : Fin 500) :
    V m c main_v29 (ix2 e' d) = Cert.ReferenceIdeal.Read.val_main_v27 (F := Ideal) (m ((c : Thread nD τ).loc main_arg2)) (ix2 e d) := by
  rw [V_pim]
  refine (pad_apply_of_inside _ _ _ _ _ _ _ (ix2 e' d) (ix2 e d) (fun a => ?_)).trans rfl
  match a with
  | ⟨0, _⟩ => show e'.val = 0 + e.val * (0 + 1); omega
  | ⟨1, _⟩ => show d.val = 0 + d.val * (0 + 1); omega

end Cert.RotDist

end
-- ==== Proof.RefRead.lean ====
/-
  The reference's result, read one operation at a time.

  The reference stretches the rotated head embeddings and the two halves of the tails to [16, 14541, 500], takes the
  modulus of the difference entry by entry, sums over the last axis starting from zero, and subtracts from 12. At
  (h, e) that is 12 minus the distance between head row h and tail row e.
-/
import proofs.«132691_j72576357368235_2_alg».proof.Proof.Gen.ReferenceIdeal.Read
import proofs.«132691_j72576357368235_2_alg».proof.Proof.Spec
import Idealize.ShloMosaic.Lib.ValueIdx
import Idealize.ShloMosaic.PureOps.Ideal.Laws

noncomputable section

namespace Cert.RotDist

open Idealize.ShloMosaic Idealize.ShloMosaic.TcCoe Idealize.SL.Sem Idealize.ShloMosaic.ValueIdx
open Cert.ReferenceIdeal Cert.ReferenceIdeal.Read

/-- The reference's result at (h, e): 12 minus the distance between head row h of the rotated embeddings (its stages
    `%22`, `%25`) and row e of the tails' halves (its stages `%26`, `%27`). The sum's initial value is zero. -/
theorem ref_apply (x0 x1 : (⟨S16, .i32⟩ : BufTy).Contents (Elt Ideal)) (x2 : (⟨S14541x1000, .f32⟩ : BufTy).Contents (Elt Ideal))
    (x3 : (⟨S474x500, .f32⟩ : BufTy).Contents (Elt Ideal)) (h : Fin 16) (e : Fin 14541) :
    val_main_v44 (F := Ideal) x0 x1 x2 x3 (ix2 h e)
      = Ideal.ofBits .f32 0x41400000#32
        - dist (val_main_v22 (F := Ideal) x0 x1 x2 x3) (val_main_v25 (F := Ideal) x0 x1 x2 x3)
            (val_main_v26 (F := Ideal) x2) (val_main_v27 (F := Ideal) x2) h e := by
  rw [val_main_v44_apply, val_main_v43_apply, val_main_cst_4_apply, val_main_v42_apply, val_main_cst_3_apply]
  show Ideal.ofBits .f32 0x41400000#32 - (Ideal.ofBits .f32 0x00000000#32 + _) = _
  rw [Ideal.ofBits_zero_f32, zero_add]
  unfold dist modulus
  refine congrArg (_ - ·) (Finset.sum_congr rfl fun d _ => ?_)
  have i1 : idx_main_v28 (idx_main_v30 (idx_main_v42 (ix2 h e) d)) = ix2 h d :=
    funext fun a => Fin.ext (by match a with | ⟨0, _⟩ => rfl | ⟨1, _⟩ => rfl)
  have i2 : idx_main_v29 (idx_main_v31 (idx_main_v42 (ix2 h e) d)) = ix2 e d :=
    funext fun a => Fin.ext (by match a with | ⟨0, _⟩ => rfl | ⟨1, _⟩ => rfl)
  have i3 : idx_main_v33 (idx_main_v35 (idx_main_v42 (ix2 h e) d)) = ix2 h d :=
    funext fun a => Fin.ext (by match a with | ⟨0, _⟩ => rfl | ⟨1, _⟩ => rfl)
  have i4 : idx_main_v34 (idx_main_v36 (idx_main_v42 (ix2 h e) d)) = ix2 e d :=
    funext fun a => Fin.ext (by match a with | ⟨0, _⟩ => rfl | ⟨1, _⟩ => rfl)
  rw [val_main_v41_apply, val_main_v40_apply, val_main_v38_apply, val_main_v39_apply, val_main_v32_apply, val_main_v37_apply,
    val_main_v30_apply, val_main_v31_apply, val_main_v35_apply, val_main_v36_apply,
    val_main_v28_apply, val_main_v29_apply, val_main_v33_apply, val_main_v34_apply, i1, i2, i3, i4]
  rfl

end Cert.RotDist

end
-- ==== Proof.KernelResult.lean ====
/-
  The kernel program's result.

  After the region the program keeps columns 0 … 14540 of the [16, 14848] array of distances and subtracts them from 12.
  Column e < 14541 of that array is the distance to row e of the padded tails, which is row e of the tails themselves; the
  head rows are the reference's own rotated rows. So entry (h, e) of the result is 12 minus the distance between head row h
  and tail row e: the reference's result, whose sum merely starts from an explicit zero.
-/
import proofs.«132691_j72576357368235_2_alg».proof.Proof.KernelValue
import proofs.«132691_j72576357368235_2_alg».proof.Proof.HostSide
import proofs.«132691_j72576357368235_2_alg».proof.Proof.RefRead
import Idealize.ShloMosaic.Lib.StableHlo.Run
import Idealize.ShloMosaic.Lib.Pipeline.Value

set_option maxRecDepth 16384

noncomputable section

namespace Cert.RotDist

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The host lines after the region: the first 14541 columns of the region's array, subtracted from 12. -/
theorem tail_eq (c : Dev nD) :
    Pipeline.afterTail₀ cfgs (dats m) 0 (V0 m) [hostOps1] c main_v33
      = subf (broadcastInDim S16x14541 ![] bcast_S_S16x14541 (constant (F := Ideal) S_ .f32 0x41400000#32))
          (extractStridedSlice S16x14541 ![0, 0] (padded m c) slices_S16x14848_S16x14541_0_0) := by
  unfold Pipeline.afterTail₀
  show StableHlo.after hostOps1 _ (Proc.devRef .tc main_v33) = _
  after_results
  have hw : Pipeline.withArrays (cfgs 0).spec c (V0 m c) (fun w => (dats m 0 c).arrAt w (cfgs 0).N) (Proc.devRef .tc main_v30)
      = padded m c :=
    (Pipeline.withArrays_arr spec0 launch0.win.arr_inj c (V0 m c) (fun w => (dats m 0 c).arrAt w cfg0.N) 4).trans (final m c)
  rw [hw]

/-- Entry (h, e) of the program's result is the reference's. -/
theorem result_apply (c : Dev nD) (j : S16x14541.Idx) :
    Pipeline.afterTail₀ cfgs (dats m) 0 (V0 m) [hostOps1] c main_v33 j
      = Cert.ReferenceIdeal.Read.val_main_v44 (F := Ideal) (m ((c : Thread nD τ).loc main_arg0)) (m ((c : Thread nD τ).loc main_arg1))
          (m ((c : Thread nD τ).loc main_arg2)) (m ((c : Thread nD τ).loc main_arg3)) j := by
  obtain ⟨h, e, rfl⟩ : ∃ (h : Fin 16) (e : Fin 14541), j = ix2 h e := ⟨j 0, j 1, eq_ix2 j⟩
  have he : e.val < 14848 := by have := e.isLt; omega
  rw [tail_eq, ref_apply]
  show (broadcastInDim S16x14541 ![] bcast_S_S16x14541 (constant (F := Ideal) S_ .f32 0x41400000#32)) (ix2 h e)
      - (extractStridedSlice S16x14541 ![0, 0] (padded m c) slices_S16x14848_S16x14541_0_0) (ix2 h e) = _
  rw [broadcastInDim_apply _ bcast_S_S16x14541 _ (ix2 h e) ix0 (fun a => a.elim0),
    extractStridedSlice_apply ![0, 0] (padded m c) slices_S16x14848_S16x14541_0_0 (ix2 h e) (ix2 h (⟨e.val, he⟩ : Fin 14848))
      (fun a => by match a with
        | ⟨0, _⟩ => show h.val = 0 + h.val; omega
        | ⟨1, _⟩ => show e.val = 0 + e.val; omega)]
  show Ideal.ofBits .f32 0x41400000#32
      - dist (V m c main_v22) (V m c main_v25) (V m c main_v27) (V m c main_v29) h (⟨e.val, he⟩ : Fin 14848) = _
  rw [V_re, V_im]
  exact congrArg (_ - ·) (dist_congr _ _ _ _ _ _ h h _ e rfl (fun d => V_pre_apply m c _ e rfl d) (fun d => V_pim_apply m c _ e rfl d))

/-- The kernel program's run, read: every weakly fair execution terminates with the result buffer holding the reference's
    result function of the arguments, and the arguments unchanged. -/
theorem kernel_run : θ_run defs (onTc (τ := τ) (main (F := Ideal))) ⟨m, fun _ => 0, ρ⟩ (fun r => ∀ c : Dev nD,
      r.2.mem ((c.tc : Thread nD τ).loc main_v33)
          = Cert.ReferenceIdeal.Read.val_main_v44 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v33 (Pipeline.mem_restRefs_of main_v33 (by decide) (by decide))).trans (funext (result_apply m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.RotDist

end
-- ==== Proof.lean ====
/-
  RotatE scores of 16 heads against all 14541 entities: kernel against reference, over the extended reals.

  Both programs gather the head and relation rows, rotate each head by its relation's phase — the same host operations
  in the same order, carried here as one function of the arguments and never opened — and then need, for head h and
  entity e, the score
      12 - ∑_d sqrt ((re_rot[h, d] - eemb[e, d])² + (im_rot[h, d] - eemb[e, 500 + d])²).
  The reference forms the [16, 14541, 500] array of moduli and sums its last axis from an explicit zero. The kernel pads
  the two halves of the entity table to 14848 rows, takes 29 blocks of 512 rows, and inside a block makes four trips of
  128 rows, each storing the lane sums of the same moduli; the padding's columns are sliced off after the region.
  At the ideal instance a lane sum and a host sum are both plain finite sums over the 500 coordinates, so the two
  results agree entry by entry with no appeal to finiteness: the only difference is the reference's leading `0 +`.

  The modules: Spec (the distance as a function of four rows), Payload (the body's arithmetic at an index), BodyPieces
  (the four stores of a block are restrictions of one function), KernelValue (the blocks tile the region's array),
  HostSide (the arrays the region is launched on), RefRead (the reference at an index), KernelResult (the kernel
  program's result is the reference's). The three frames are the generated ones, the reference's being its generated
  run with the result dropped; no ideal-pass rewrite was applied, so nothing is owed for `preserves`.
-/
import proofs.«132691_j72576357368235_2_alg».proof.Defs
import proofs.«132691_j72576357368235_2_alg».proof.Proof.Gen.Kernel
import proofs.«132691_j72576357368235_2_alg».proof.Proof.Gen.Kernel.Skeleton
import proofs.«132691_j72576357368235_2_alg».proof.Proof.Gen.Kernel.Loops
import proofs.«132691_j72576357368235_2_alg».proof.Proof.Gen.Kernel.Launch
import proofs.«132691_j72576357368235_2_alg».proof.Proof.Gen.Kernel.Points
import proofs.«132691_j72576357368235_2_alg».proof.Proof.Gen.Kernel.Frame
import proofs.«132691_j72576357368235_2_alg».proof.Proof.Gen.KernelIdeal
import proofs.«132691_j72576357368235_2_alg».proof.Proof.Gen.KernelIdeal.Skeleton
import proofs.«132691_j72576357368235_2_alg».proof.Proof.Gen.KernelIdeal.Loops
import proofs.«132691_j72576357368235_2_alg».proof.Proof.Gen.KernelIdeal.Launch
import proofs.«132691_j72576357368235_2_alg».proof.Proof.Gen.KernelIdeal.Points
import proofs.«132691_j72576357368235_2_alg».proof.Proof.Gen.KernelIdeal.Frame
import proofs.«132691_j72576357368235_2_alg».proof.Proof.Gen.ReferenceIdeal
import proofs.«132691_j72576357368235_2_alg».proof.Proof.Gen.ReferenceIdeal.Run
import proofs.«132691_j72576357368235_2_alg».proof.Proof.Gen.ReferenceIdeal.Read
import proofs.«132691_j72576357368235_2_alg».proof.Proof.Gen.Pre_finite_inputs
import proofs.«132691_j72576357368235_2_alg».proof.Proof.KernelResult
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the reference's result function of those arguments:
    the kernel program by `Cert.RotDist.kernel_run`, the reference by its generated run. -/
theorem algebraic : Cert.algebraic_KernelIdeal_ReferenceIdeal := by
  intro m ρ m' ρ' _ hagree
  refine ⟨fun c => Cert.ReferenceIdeal.Read.val_main_v44 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.RotDist.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
